-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x70 : Shape := ⟨2, ![128, 70]⟩
abbrev S70 : Shape := ⟨1, ![70]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x70 : S_.BroadcastsInDim S128x70 (![] : Fin 0 → Fin S128x70.rank)
  reducesTo_S128x70_S_d0_1 : S128x70.ReducesTo [0, 1] S_
  bcast_S_S70 : S_.BroadcastsInDim S70 (![] : Fin 0 → Fin S70.rank)
  reducesTo_S70_S_d0 : S70.ReducesTo [0] S_

variable [Facts]

def fn_part1 {F : FTy → Type} [FloatOps F] (main_arg5 : FVec F S70 .f32) (main_v13 : IVec S_ 1) (main_v16 : IVec S128x70 1) : IVec S_ 1 :=
  let main_c_5 : IVec S_ 1 := constantI S_ 1 1#1
  let main_v17 : IVec S_ 1 := (fun x v => Host.reduce IntOp.andi x v reducesTo_S128x70_S_d0_1 h_S_) main_v16 main_c_5
  let main_v18 : IVec S_ 1 := andi main_v13 main_v17
  let main_v19 : FVec F S70 .f32 := Host.absf main_arg5
  let main_cst_6 : FVec F S_ .f32 := constant S_ .f32 0x7F800000#32
  let main_v20 : FVec F S70 .f32 := broadcastInDim S70 ![] bcast_S_S70 main_cst_6
  let main_v21 : IVec S70 1 := cmpf .olt main_v19 main_v20
  let main_c_7 : IVec S_ 1 := constantI S_ 1 1#1
  let main_v22 : IVec S_ 1 := (fun x v => Host.reduce IntOp.andi x v reducesTo_S70_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x70 .f32) (main_arg5 : FVec F S70 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x70 .f32 := Host.absf main_arg4
  let main_cst_4 : FVec F S_ .f32 := constant S_ .f32 0x7F800000#32
  let main_v15 : FVec F S128x70 .f32 := broadcastInDim S128x70 ![] bcast_S_S128x70 main_cst_4
  let main_v16 : IVec S128x70 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x70 : Shape := ⟨2, ![128, 70]⟩
abbrev S70 : Shape := ⟨1, ![70]⟩
abbrev S10000x128 : Shape := ⟨2, ![10000, 128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x70 : Shape := ⟨2, ![100000, 70]⟩
abbrev S10000x70 : Shape := ⟨2, ![10000, 70]⟩
abbrev S1700000x70 : Shape := ⟨2, ![1700000, 70]⟩
abbrev S1x70 : Shape := ⟨2, ![1, 70]⟩

abbrev nBuf : Space → Nat
  | .hbm => 126
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x70, .f32⟩
  | .hbm, ⟨5, _⟩ => ⟨S70, .f32⟩
  | .hbm, ⟨6, _⟩ => ⟨S100000x128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S100000x70, .f32⟩
  | .hbm, ⟨67, _⟩ => ⟨S1x1600000, .i32⟩
  | .hbm, ⟨68, _⟩ => ⟨S1600000, .i32⟩
  | .hbm, ⟨69, _⟩ => ⟨S1x1600000, .i32⟩
  | .hbm, ⟨70, _⟩ => ⟨S1600000, .i32⟩
  | .hbm, ⟨71, _⟩ => ⟨S100000, .i32⟩
  | .hbm, ⟨72, _⟩ => ⟨S1700000, .i32⟩
  | .hbm, ⟨73, _⟩ => ⟨S1700000, .i32⟩
  | .hbm, ⟨74, _⟩ => ⟨S_, .f32⟩
  | .hbm, ⟨75, _⟩ => ⟨S1700000, .f32⟩
  | .hbm, ⟨76, _⟩ => ⟨S_, .f32⟩
  | .hbm, ⟨77, _⟩ => ⟨S100000, .f32⟩
  | .hbm, ⟨78, _⟩ => ⟨S1700000x1, .i32⟩
  | .hbm, ⟨79, _⟩ => ⟨S100000, .f32⟩
  | .hbm, ⟨80, _⟩ => ⟨S_, .f32⟩
  | .hbm, ⟨81, _⟩ => ⟨S100000, .f32⟩
  | .hbm, ⟨82, _⟩ => ⟨S100000, .i1⟩
  | .hbm, ⟨83, _⟩ => ⟨S100000, .f32⟩
  | .hbm, ⟨84, _⟩ => ⟨S_, .f32⟩
  | .hbm, ⟨85, _⟩ => ⟨S_, .f32⟩
  | .hbm, ⟨86, _⟩ => ⟨S100000, .f32⟩
  | .hbm, ⟨87, _⟩ => ⟨S100000, .f32⟩
  | .hbm, ⟨88, _⟩ => ⟨S_, .i32⟩
  | .hbm, ⟨89, _⟩ => ⟨S1700000, .i32⟩
  | .hbm, ⟨90, _⟩ => ⟨S1700000, .i1⟩
  | .hbm, ⟨91, _⟩ => ⟨S_, .i32⟩
  | .hbm, ⟨92, _⟩ => ⟨S1700000, .i32⟩
  | .hbm, ⟨93, _⟩ => ⟨S1700000, .i32⟩
  | .hbm, ⟨94, _⟩ => ⟨S1700000, .i32⟩
  | .hbm, ⟨95, _⟩ => ⟨S1700000x1, .i32⟩
  | .hbm, ⟨96, _⟩ => ⟨S1700000, .f32⟩
  | .hbm, ⟨97, _⟩ => ⟨S_, .i32⟩
  | .hbm, ⟨98, _⟩ => ⟨S1700000, .i32⟩
  | .hbm, ⟨99, _⟩ => ⟨S1700000, .i1⟩
  | .hbm, ⟨100, _⟩ => ⟨S_, .i32⟩
  | .hbm, ⟨101, _⟩ => ⟨S1700000, .i32⟩
  | .hbm, ⟨102, _⟩ => ⟨S1700000, .i32⟩
  | .hbm, ⟨103, _⟩ => ⟨S1700000, .i32⟩
  | .hbm, ⟨104, _⟩ => ⟨S1700000x1, .i32⟩
  | .hbm, ⟨105, _⟩ => ⟨S1700000, .f32⟩
  | .hbm, ⟨106, _⟩ => ⟨S1700000, .f32⟩
  | .hbm, ⟨107, _⟩ => ⟨S_, .i32⟩
  | .hbm, ⟨108, _⟩ => ⟨S1700000, .i32⟩
  | .hbm, ⟨109, _⟩ => ⟨S1700000, .i1⟩
  | .hbm, ⟨110, _⟩ => ⟨S_, .i32⟩
  | .hbm, ⟨111, _⟩ => ⟨S1700000, .i32⟩
  | .hbm, ⟨112, _⟩ => ⟨S1700000, .i32⟩
  | .hbm, ⟨113, _⟩ => ⟨S1700000, .i32⟩
  | .hbm, ⟨114, _⟩ => ⟨S1700000x1, .i32⟩
  | .hbm, ⟨115, _⟩ => ⟨S1700000x70, .f32⟩
  | .hbm, ⟨116, _⟩ => ⟨S1700000x1, .f32⟩
  | .hbm, ⟨117, _⟩ => ⟨S1700000x70, .f32⟩
  | .hbm, ⟨118, _⟩ => ⟨S1700000x70, .f32⟩
  | .hbm, ⟨119, _⟩ => ⟨S_, .f32⟩
  | .hbm, ⟨120, _⟩ => ⟨S100000x70, .f32⟩
  | .hbm, ⟨121, _⟩ => ⟨S1700000x1, .i32⟩
  | .hbm, ⟨122, _⟩ => ⟨S100000x70, .f32⟩
  | .hbm, ⟨123, _⟩ => ⟨S1x70, .f32⟩
  | .hbm, ⟨124, _⟩ => ⟨S100000x70, .f32⟩
  | .hbm, ⟨125, _⟩ => ⟨S100000x70, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128x70, .f32⟩
  | .local _ .vmem, ⟨8, _⟩ => ⟨S10000x70, .f32⟩
  | .local _ .vmem, ⟨9, _⟩ => ⟨S10000x70, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_9 : Ref sig .tc := ⟨.hbm, 74, rfl⟩
abbrev main_v55 : Ref sig .tc := ⟨.hbm, 75, rfl⟩
abbrev main_cst_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_11 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_12 : Ref sig .tc := ⟨.hbm, 84, rfl⟩
abbrev main_call1_v0 : Ref sig .tc := ⟨.hbm, 85, rfl⟩
abbrev main_call1_v1 : Ref sig .tc := ⟨.hbm, 86, rfl⟩
abbrev main_v62 : Ref sig .tc := ⟨.hbm, 87, rfl⟩
abbrev main_c_13 : Ref sig .tc := ⟨.hbm, 88, rfl⟩
abbrev main_v63 : Ref sig .tc := ⟨.hbm, 89, rfl⟩
abbrev main_v64 : Ref sig .tc := ⟨.hbm, 90, rfl⟩
abbrev main_c_14 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_c_15 : Ref sig .tc := ⟨.hbm, 97, rfl⟩
abbrev main_v70 : Ref sig .tc := ⟨.hbm, 98, rfl⟩
abbrev main_v71 : Ref sig .tc := ⟨.hbm, 99, rfl⟩
abbrev main_c_16 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_c_17 : Ref sig .tc := ⟨.hbm, 107, rfl⟩
abbrev main_v78 : Ref sig .tc := ⟨.hbm, 108, rfl⟩
abbrev main_v79 : Ref sig .tc := ⟨.hbm, 109, rfl⟩
abbrev main_c_18 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_19 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x70 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x70 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S10000x128_S10000x128 : S10000x128.ShapeCasts S10000x128
  inb_S128x70_S128x70_0_0 : ∀ a, (![0, 0] : Fin 2 → Nat) a + S128x70.size a ≤ S128x70.size a
  h_S128x70 : 0 < S128x70.numel
  inb_S10000x70_S10000x70_0_0 : ∀ a, (![0, 0] : Fin 2 → Nat) a + S10000x70.size a ≤ S10000x70.size a
  h_S10000x70 : 0 < S10000x70.numel
  bcast_S1700000x1_S1700000x70_0_1 : S1700000x1.BroadcastsInDim S1700000x70 (![0, 1] : Fin 2 → Fin S1700000x70.rank)
  bcast_S_S100000x70 : S_.BroadcastsInDim S100000x70 (![] : Fin 0 → Fin S100000x70.rank)
  bcast_S70_S1x70_1 : S70.BroadcastsInDim S1x70 (![1] : Fin 1 → Fin S1x70.rank)
  bcast_S1x70_S100000x70_0_1 : S1x70.BroadcastsInDim S100000x70 (![0, 1] : Fin 2 → Fin S100000x70.rank)
  dot_S10000x128_S128x128_S10000x128_1_0_0_1_n_n_wf : DotDims.WF S10000x128 S128x128 S10000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x70_S10000x70_1_0_0_1_n_n_wf : DotDims.WF S10000x128 S128x70 S10000x70 [1] [0] [0] [1] [] []
  gather_S100000x70_S1700000x1_S1700000x70_1_0_n_n_0_1_170_wf : GatherDims.WF S100000x70 S1700000x1 S1700000x70 [1] [0] [] [0] [] 1 ![1, 70]
  scatter_S100000x70_S1700000x1_S1700000x70_1_0_0_1_wf : ScatterDims.WF S100000x70 S1700000x1 S1700000x70 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x70.size a ≤ S128x70.size a
  hwx1_1 : ∀ i : grid1.Coords, EltTy.bits .f32 = 32 ∨ (Rect.block (s := S128x70) S128x70.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x70.size a ≤ S100000x70.size a
  hwx1_2 : ∀ i : grid1.Coords, EltTy.bits .f32 = 32 ∨ (Rect.block (s := S100000x70) S10000x70.size (cc1_transform_2 i) (hinb1_2 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x70_S10000x70_1_0_0_1_n_n : DotDims S10000x128 S128x70 S10000x70 where
  lhsContracting := [1]
  rhsContracting := [0]
  lhsNonContracting := [0]
  rhsNonContracting := [1]
  lhsBatch := []
  rhsBatch := []
  wf := dot_S10000x128_S128x70_S10000x70_1_0_0_1_n_n_wf
def gather_S100000x70_S1700000x1_S1700000x70_1_0_n_n_0_1_170 : GatherDims S100000x70 S1700000x1 S1700000x70 where
  offsetDims := [1]
  collapsedSliceDims := [0]
  operandBatchingDims := []
  startIndicesBatchingDims := []
  startIndexMap := [0]
  indexVectorDim := 1
  sliceSizes := ![1, 70]
  wf := gather_S100000x70_S1700000x1_S1700000x70_1_0_n_n_0_1_170_wf
def scatter_S100000x70_S1700000x1_S1700000x70_1_0_0_1 : ScatterDims S100000x70 S1700000x1 S1700000x70 where
  updateWindowDims := [1]
  insertedWindowDims := [0]
  scatterDimsToOperandDims := [0]
  indexVectorDim := 1
  wf := scatter_S100000x70_S1700000x1_S1700000x70_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x70.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x70.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x70 : Shape := ⟨2, ![128, 70]⟩
abbrev S70 : Shape := ⟨1, ![70]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x70 : Shape := ⟨2, ![100000, 70]⟩
abbrev S1700000x70 : Shape := ⟨2, ![1700000, 70]⟩
abbrev S1x70 : Shape := ⟨2, ![1, 70]⟩

abbrev nBuf : Space → Nat
  | .hbm => 129
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x70, .f32⟩
  | 5 => ⟨S70, .f32⟩
  | 6 => ⟨S100000x128, .f32⟩
  | 7 => ⟨S1x1600000, .i32⟩
  | 8 => ⟨S1600000, .i32⟩
  | 9 => ⟨S1x1600000, .i32⟩
  | 10 => ⟨S1600000, .i32⟩
  | 11 => ⟨S100000, .i32⟩
  | 12 => ⟨S1700000, .i32⟩
  | 13 => ⟨S1700000, .i32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x128, .f32⟩
  | 56 => ⟨S1700000x1, .f32⟩
  | 57 => ⟨S1700000x128, .f32⟩
  | 58 => ⟨S1700000x128, .f32⟩
  | 59 => ⟨S_, .f32⟩
  | 60 => ⟨S100000x128, .f32⟩
  | 61 => ⟨S1700000x1, .i32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S100000x70, .f32⟩
  | 70 => ⟨S1x1600000, .i32⟩
  | 71 => ⟨S1600000, .i32⟩
  | 72 => ⟨S1x1600000, .i32⟩
  | 73 => ⟨S1600000, .i32⟩
  | 74 => ⟨S100000, .i32⟩
  | 75 => ⟨S1700000, .i32⟩
  | 76 => ⟨S1700000, .i32⟩
  | 77 => ⟨S_, .f32⟩
  | 78 => ⟨S1700000, .f32⟩
  | 79 => ⟨S_, .f32⟩
  | 80 => ⟨S100000, .f32⟩
  | 81 => ⟨S1700000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000, .f32⟩
  | 100 => ⟨S_, .i32⟩
  | 101 => ⟨S1700000, .i32⟩
  | 102 => ⟨S1700000, .i1⟩
  | 103 => ⟨S_, .i32⟩
  | 104 => ⟨S1700000, .i32⟩
  | 105 => ⟨S1700000, .i32⟩
  | 106 => ⟨S1700000, .i32⟩
  | 107 => ⟨S1700000x1, .i32⟩
  | 108 => ⟨S1700000, .f32⟩
  | 109 => ⟨S1700000, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000x70, .f32⟩
  | 119 => ⟨S1700000x1, .f32⟩
  | 120 => ⟨S1700000x70, .f32⟩
  | 121 => ⟨S1700000x70, .f32⟩
  | 122 => ⟨S_, .f32⟩
  | 123 => ⟨S100000x70, .f32⟩
  | 124 => ⟨S1700000x1, .i32⟩
  | 125 => ⟨S100000x70, .f32⟩
  | 126 => ⟨S1x70, .f32⟩
  | 127 => ⟨S100000x70, .f32⟩
  | _ => ⟨S100000x128, .f32⟩

abbrev hbmTy0_1 (i : Nat) : BufTy := match i % 128 with
  | 0 => ⟨S100000x70, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x70_0_1 : S1700000x1.BroadcastsInDim S1700000x70 (![0, 1] : Fin 2 → Fin S1700000x70.rank)
  bcast_S_S100000x70 : S_.BroadcastsInDim S100000x70 (![] : Fin 0 → Fin S100000x70.rank)
  bcast_S70_S1x70_1 : S70.BroadcastsInDim S1x70 (![1] : Fin 1 → Fin S1x70.rank)
  bcast_S1x70_S100000x70_0_1 : S1x70.BroadcastsInDim S100000x70 (![0, 1] : Fin 2 → Fin S100000x70.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x70_S100000x70_1_0_0_1_n_n_wf : DotDims.WF S100000x128 S128x70 S100000x70 [1] [0] [0] [1] [] []
  gather_S100000x70_S1700000x1_S1700000x70_1_0_n_n_0_1_170_wf : GatherDims.WF S100000x70 S1700000x1 S1700000x70 [1] [0] [] [0] [] 1 ![1, 70]
  scatter_S100000x70_S1700000x1_S1700000x70_1_0_0_1_wf : ScatterDims.WF S100000x70 S1700000x1 S1700000x70 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x70_S100000x70_1_0_0_1_n_n : DotDims S100000x128 S128x70 S100000x70 where
  lhsContracting := [1]
  rhsContracting := [0]
  lhsNonContracting := [0]
  rhsNonContracting := [1]
  lhsBatch := []
  rhsBatch := []
  wf := dot_S100000x128_S128x70_S100000x70_1_0_0_1_n_n_wf
def gather_S100000x70_S1700000x1_S1700000x70_1_0_n_n_0_1_170 : GatherDims S100000x70 S1700000x1 S1700000x70 where
  offsetDims := [1]
  collapsedSliceDims := [0]
  operandBatchingDims := []
  startIndicesBatchingDims := []
  startIndexMap := [0]
  indexVectorDim := 1
  sliceSizes := ![1, 70]
  wf := gather_S100000x70_S1700000x1_S1700000x70_1_0_n_n_0_1_170_wf
def scatter_S100000x70_S1700000x1_S1700000x70_1_0_0_1 : ScatterDims S100000x70 S1700000x1 S1700000x70 where
  updateWindowDims := [1]
  insertedWindowDims := [0]
  scatterDimsToOperandDims := [0]
  indexVectorDim := 1
  wf := scatter_S100000x70_S1700000x1_S1700000x70_1_0_0_1_wf

class Facts : Prop extends Facts₀ where

variable [Facts]
-- ==== Proof.RefFold.lean ====
/-
  The reference's run, with its result left as the fold of its own line.

  The reference's program is a straight line of host operations, so every weakly fair execution ends with every buffer
  at the fold of the line over the launch contents.  The six argument buffers are written by no operation and are
  there as launched; the result buffer is there at the fold's value.
-/
import proofs.«170511_j75359496175833_1_alg».proof.Proof.RefRun

noncomputable section

namespace Cert.ReferenceIdeal.Fold

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

set_option maxRecDepth 8192 in
set_option maxHeartbeats 49200000 in
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v94) = after (ops (F := F)) (launchContents m c) (Proc.devRef .tc main_v94)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨h c main_v94,
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.Fold

end
-- ==== Proof.KernelRun.lean ====
/-
  The kernel's run, with the result buffer read.

  Every weakly fair execution of the program ends, nothing faulting, with every buffer that outlives the regions at
  the last boundary's contents — the fold of the program's segments over the launch contents.  The six argument
  buffers are there as launched, and the result buffer is there at the fold's value, whatever that value is: what
  the fold computes is a separate question, answered where the fold is evaluated.
-/
import proofs.«170511_j75359496175833_1_alg».proof.Proof.Gen.KernelIdeal.Frame

set_option maxRecDepth 16384

noncomputable section

namespace Cert.KernelIdeal.Layers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v93) = W8 m ρ c (Proc.devRef .tc main_v93)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v93 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Layers

end
-- ==== Proof.LibDotRead.lean ====
/-
  A contraction over one axis, read at an index, on the extended reals.

  A product of two arrays that contracts ONE axis of each, whatever batch and free axes surround it, is at every result
  index the sum, over the shared axis's coordinate k, of the left operand at an index L k times the right operand at an
  index R k.  The dimension numbers determine L and R: a batch axis or a free axis of an operand reads one coordinate of
  the result index (its position among the result's axes is: the batch axes first, then the left operand's free axes, then
  the right operand's), and the contracted axis reads k.  The lemmas below give each such coordinate as a number, so
  that for literal dimension numbers the two indices L k and R k can be written out by coordinates; the sum itself is the
  kernel's product into a zero accumulator and the host's general product alike.
-/
import Idealize.ShloMosaic.PureOps.Ideal.Laws
import Idealize.ShloMosaic.Lib.ValueIdx

noncomputable section

namespace Cert.DotRead

open Idealize.ShloMosaic Idealize.ShloMosaic.ValueIdx

variable {sl sr so : Shape} (d : DotDims sl sr so)

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

/-- A batch axis of the left operand reads the result index at the axis's place among the batch axes. -/
theorem lhs_batch_val (j : so.Idx) (k : d.contr.Idx) (a : Fin sl.rank) (hb : a ∈ d.lhsBatch)
    (q : Fin so.rank) (hq : d.lhsBatch.idxOf a = q.val) : (d.lhsIdx j k a).val = (j q).val := by
  unfold DotDims.lhsIdx
  rw [dif_pos hb]
  simp only [Fin.val_cast]
  exact val_congr j _ _ _ q.isLt hq

/-- A free axis of the left operand reads the result index after the batch axes. -/
theorem lhs_free_val (j : so.Idx) (k : d.contr.Idx) (a : Fin sl.rank) (hb : a ∉ d.lhsBatch) (hn : a ∈ d.lhsNonContracting)
    (q : Fin so.rank) (hq : d.lhsBatch.length + d.lhsNonContracting.idxOf a = q.val) : (d.lhsIdx j k a).val = (j q).val := by
  unfold DotDims.lhsIdx
  rw [dif_neg hb, dif_pos hn]
  simp only [Fin.val_cast]
  exact val_congr j _ _ _ q.isLt hq

/-- A batch axis of the right operand reads the result index at the axis's place among the batch axes. -/
theorem rhs_batch_val (j : so.Idx) (k : d.contr.Idx) (a : Fin sr.rank) (hb : a ∈ d.rhsBatch)
    (q : Fin so.rank) (hq : d.rhsBatch.idxOf a = q.val) : (d.rhsIdx j k a).val = (j q).val := by
  unfold DotDims.rhsIdx
  rw [dif_pos hb]
  simp only [Fin.val_cast]
  exact val_congr j _ _ _ q.isLt hq

/-- A free axis of the right operand reads the result index after the batch axes and the left operand's free axes. -/
theorem rhs_free_val (j : so.Idx) (k : d.contr.Idx) (a : Fin sr.rank) (hb : a ∉ d.rhsBatch) (hn : a ∈ d.rhsNonContracting)
    (q : Fin so.rank) (hq : d.lhsBatch.length + d.lhsNonContracting.length + d.rhsNonContracting.idxOf a = q.val) :
    (d.rhsIdx j k a).val = (j q).val := by
  unfold DotDims.rhsIdx
  rw [dif_neg hb, dif_pos hn]
  simp only [Fin.val_cast]
  exact val_congr j _ _ _ q.isLt hq

/-- One contracted axis: the contraction shape has one axis … -/
theorem contr_rank_one {cl : Fin sl.rank} (hc : d.lhsContracting = [cl]) : d.contr.rank = 1 := by
  rw [d.rank_contr, hc]; rfl

/-- … of the contracted axis's extent. -/
theorem contr_size_one {cl : Fin sl.rank} (hc : d.lhsContracting = [cl]) :
    d.contr.size ⟨0, by rw [contr_rank_one d hc]; exact Nat.one_pos⟩ = sl.size cl := by
  rw [d.size_contr 0 (by rw [hc]; exact Nat.one_pos)]
  simp only [hc, List.getElem_cons_zero]

section One

variable (K : Nat) (hr : d.contr.rank = 1) (hs : d.contr.size ⟨0, by omega⟩ = K)

/-- The left operand's contracted axis reads the shared coordinate. -/
theorem lhs_contr_val {cl : Fin sl.rank} (hc : d.lhsContracting = [cl]) (j : so.Idx) (k : Fin K) :
    (d.lhsIdx j ((contrEquiv1 d K hr hs).symm k) cl).val = k.val :=
  (d.lhsIdx_val_of_single hc _ _).trans (contrEquiv1_symm_val d K hr hs k)

/-- The right operand's contracted axis reads the shared coordinate. -/
theorem rhs_contr_val {cr : Fin sr.rank} (hc : d.rhsContracting = [cr]) (j : so.Idx) (k : Fin K) :
    (d.rhsIdx j ((contrEquiv1 d K hr hs).symm k) cr).val = k.val :=
  (d.rhsIdx_val_of_single hc _ _).trans (contrEquiv1_symm_val d K hr hs k)

/-- A kernel's product into a zero accumulator: the sum over the shared coordinate. -/
theorem matmul_zero_read {φ₁ φ₂ : FTy} (prec : Option ContractPrecision) (lhs : FVec Ideal sl φ₁) (rhs : FVec Ideal sr φ₂)
    (j : so.Idx) (L : Fin K → sl.Idx) (R : Fin K → sr.Idx)
    (hL : ∀ k, d.lhsIdx j ((contrEquiv1 d K hr hs).symm k) = L k)
    (hR : ∀ k, d.rhsIdx j ((contrEquiv1 d K hr hs).symm k) = R k) :
    FloatOps.matmul d prec lhs rhs (constant so .f32 0x00000000#32) j = ∑ k : Fin K, lhs (L k) * rhs (R k) := by
  rw [Ideal.matmul_constant_zero_apply, ← Equiv.sum_comp (contrEquiv1 d K hr hs).symm]
  exact Finset.sum_congr rfl fun k _ => by rw [hL k, hR k]

/-- The host's general product: the same sum. -/
theorem dotGeneral_read {φ₁ φ₂ : FTy} (prec : Option ContractPrecision) (sched : HostSchedule)
    (lhs : FVec Ideal sl φ₁) (rhs : FVec Ideal sr φ₂)
    (j : so.Idx) (L : Fin K → sl.Idx) (R : Fin K → sr.Idx)
    (hL : ∀ k, d.lhsIdx j ((contrEquiv1 d K hr hs).symm k) = L k)
    (hR : ∀ k, d.rhsIdx j ((contrEquiv1 d K hr hs).symm k) = R k) :
    FloatOps.dotGeneral d prec sched lhs rhs j = ∑ k : Fin K, lhs (L k) * rhs (R k) := by
  rw [Ideal.dotGeneral_apply, ← Equiv.sum_comp (contrEquiv1 d K hr hs).symm]
  exact Finset.sum_congr rfl fun k _ => by rw [hL k, hR k]

end One

end Cert.DotRead

end
-- ==== Proof.LibMatmulRows.lean ====
/-
  The product of an [M, K] array with a [K, N] array, read at one entry.

  Both spellings of the product contract the left operand's second axis with the right operand's first and keep the
  left operand's rows and the right operand's columns as the result's two axes.  On the extended reals the entry in
  row p and column q is then the sum over the shared coordinate k of (left at (p, k)) times (right at (k, q)) — for
  the kernel's product into a zero accumulator and for the host's general product alike, whatever M, K and N are.
  A product computed a block of rows at a time therefore has the same entries as the product of the whole arrays.
-/
import proofs.«170511_j75359496175833_1_alg».proof.Proof.LibDotRead

noncomputable section

namespace Cert.MatmulRows

open Idealize.ShloMosaic Idealize.ShloMosaic.ValueIdx

variable {M K N : Nat} (d : DotDims (⟨2, ![M, K]⟩ : Shape) (⟨2, ![K, N]⟩ : Shape) (⟨2, ![M, N]⟩ : Shape))
  (hlc : d.lhsContracting = [1]) (hrc : d.rhsContracting = [0])
  (hln : d.lhsNonContracting = [0]) (hrn : d.rhsNonContracting = [1])
  (hlb : d.lhsBatch = []) (hrb : d.rhsBatch = [])

include hlc in
theorem contr_rank : d.contr.rank = 1 := Cert.DotRead.contr_rank_one d hlc

include hlc in
theorem contr_size : d.contr.size ⟨0, by rw [contr_rank d hlc]; exact Nat.one_pos⟩ = K :=
  Cert.DotRead.contr_size_one d hlc

include hlc hln hlb in
/-- The left operand is read in the result's row, at the shared coordinate. -/
theorem lhs_read (p : Fin M) (q : Fin N) (k : Fin K) :
    d.lhsIdx (ix2 p q) ((contrEquiv1 d K (contr_rank d hlc) (contr_size d hlc)).symm k) = ix2 p k := by
  funext a
  apply Fin.ext
  match a with
  | ⟨0, _⟩ =>
    exact Cert.DotRead.lhs_free_val d (ix2 p q) _ 0 (by rw [hlb]; exact List.not_mem_nil) (by rw [hln]; exact List.mem_singleton.mpr rfl)
      0 (by rw [hlb, hln]; rfl)
  | ⟨1, _⟩ => exact Cert.DotRead.lhs_contr_val d K (contr_rank d hlc) (contr_size d hlc) hlc (ix2 p q) k

include hlc hrc hln hrn hlb hrb in
/-- The right operand is read at the shared coordinate, in the result's column. -/
theorem rhs_read (p : Fin M) (q : Fin N) (k : Fin K) :
    d.rhsIdx (ix2 p q) ((contrEquiv1 d K (contr_rank d hlc) (contr_size d hlc)).symm k) = ix2 k q := by
  funext a
  apply Fin.ext
  match a with
  | ⟨0, _⟩ => exact Cert.DotRead.rhs_contr_val d K (contr_rank d hlc) (contr_size d hlc) hrc (ix2 p q) k
  | ⟨1, _⟩ =>
    exact Cert.DotRead.rhs_free_val d (ix2 p q) _ 1 (by rw [hrb]; exact List.not_mem_nil) (by rw [hrn]; exact List.mem_singleton.mpr rfl)
      1 (by rw [hlb, hln, hrn]; rfl)

include hlc hrc hln hrn hlb hrb in
/-- The kernel's product into a zero accumulator, entry (p, q). -/
theorem matmul_zero_ix2 {φ₁ φ₂ : FTy} (prec : Option ContractPrecision)
    (lhs : FVec Ideal (⟨2, ![M, K]⟩ : Shape) φ₁) (rhs : FVec Ideal (⟨2, ![K, N]⟩ : Shape) φ₂) (p : Fin M) (q : Fin N) :
    FloatOps.matmul d prec lhs rhs (constant (⟨2, ![M, N]⟩ : Shape) .f32 0x00000000#32) (ix2 p q)
      = ∑ k : Fin K, lhs (ix2 p k) * rhs (ix2 k q) :=
  Cert.DotRead.matmul_zero_read d K (contr_rank d hlc) (contr_size d hlc) prec lhs rhs (ix2 p q) (fun k => ix2 p k) (fun k => ix2 k q)
    (lhs_read d hlc hln hlb p q) (rhs_read d hlc hrc hln hrn hlb hrb p q)

include hlc hrc hln hrn hlb hrb in
/-- The host's general product, entry (p, q). -/
theorem dotGeneral_ix2 {φ₁ φ₂ : FTy} (prec : Option ContractPrecision) (sched : HostSchedule)
    (lhs : FVec Ideal (⟨2, ![M, K]⟩ : Shape) φ₁) (rhs : FVec Ideal (⟨2, ![K, N]⟩ : Shape) φ₂) (p : Fin M) (q : Fin N) :
    FloatOps.dotGeneral d prec sched lhs rhs (ix2 p q) = ∑ k : Fin K, lhs (ix2 p k) * rhs (ix2 k q) :=
  Cert.DotRead.dotGeneral_read d K (contr_rank d hlc) (contr_size d hlc) prec sched lhs rhs (ix2 p q) (fun k => ix2 p k) (fun k => ix2 k q)
    (lhs_read d hlc hln hlb p q) (rhs_read d hlc hrc hln hrn hlb hrb p q)

end Cert.MatmulRows

end
-- ==== Proof.RowProduct.lean ====
/-
  The two pipelined regions of the kernel's program, each as one whole-array product.

  Each region walks the hundred thousand node rows in ten blocks of ten thousand.  At a block it loads the block's rows
  of its left operand and the whole weight matrix, multiplies them into a zero accumulator, and writes the block's rows
  of the result.  The second region first replaces every entry of its left block by its maximum with zero.
  On the extended reals a change of float format is the identity and the product into zero is the plain sum over the
  shared coordinate, so row P of the result depends on row P of the left operand only:
    region 0:  out (P, q) = sum over k of  x (P, k) * w (k, q)
    region 1:  out (P, q) = sum over k of  max (h (P, k)) 0 * w (k, q)
  which are the entries of the host's general product of the whole arrays (of x, and of max h 0).  The blocks tile the
  result array (row P lies in block P / 10000), so after the last block the array IS that product.
-/
import proofs.«170511_j75359496175833_1_alg».proof.Proof.Gen.KernelIdeal.Frame
import proofs.«170511_j75359496175833_1_alg».proof.Proof.LibMatmulRows
import Idealize.ShloMosaic.Lib.Pipeline.Value
import Idealize.ShloMosaic.Lib.ValueIdx
import Idealize.ShloMosaic.PureOps.Ideal.Laws

noncomputable section

namespace Cert.KernelIdeal.Layers

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The whole-array products the two regions compute: [100000,128] by [128,128], and [100000,128] by [128,70]. -/
abbrev dotHidden : DotDims S100000x128 S128x128 S100000x128 := DotDims.plain 100000 128 128
abbrev dotOut : DotDims S100000x128 S128x70 S100000x70 := DotDims.plain 100000 128 70

/-- The first layer's product of the whole arrays. -/
def layer0 (x : FVec Ideal S100000x128 .f32) (w : FVec Ideal S128x128 .f32) : FVec Ideal S100000x128 .f32 :=
  Host.dotGeneral dotHidden none x w

/-- The second layer's product of the whole arrays, the left operand first cut off below at zero. -/
def layer1 (h : FVec Ideal S100000x128 .f32) (w : FVec Ideal S128x70 .f32) : FVec Ideal S100000x70 .f32 :=
  Host.dotGeneral dotOut none (maximumf h (broadcastInDim S100000x128 ![] bcast_S_S100000x128 (constant (F := Ideal) S_ .f32 0x00000000#32))) w

/-! ## One block's body, entry by entry -/

/-- Region 0 at a block: entry (p, q) is row p of the left block against column q of the weights. -/
theorem body0_at (x0 : Vec Ideal S10000x128 .f32) (x1 : Vec Ideal S128x128 .f32) (p : Fin 10000) (q : Fin 128) :
    out0_2 (F := Ideal) x0 x1 (ix2 p q) = ∑ k : Fin 128, x0 (ix2 p k) * x1 (ix2 k q) := by
  unfold out0_2
  rw [View.canon_unit_zero hz]
  simp only [View.ld_unit_zero (S := S10000x128) hz, View.ld_unit_zero (S := S128x128) hz]
  unfold k0_pay1
  exact Cert.MatmulRows.matmul_zero_ix2 dot_S10000x128_S128x128_S10000x128_1_0_0_1_n_n rfl rfl rfl rfl rfl rfl none _ _ p q

/-- Region 1 at a block: the same with the left block's entries cut off below at zero. -/
theorem body1_at (x0 : Vec Ideal S10000x128 .f32) (x1 : Vec Ideal S128x70 .f32) (p : Fin 10000) (q : Fin 70) :
    out1_2 (F := Ideal) x0 x1 (ix2 p q)
      = ∑ k : Fin 128, max (x0 (ix2 p k)) (Scalar.ofBits (F := Ideal) .f32 0x00000000#32) * x1 (ix2 k q) := by
  unfold out1_2
  rw [View.canon_unit_zero hz]
  simp only [View.ld_unit_zero (S := S10000x128) hz, View.ld_unit_zero (S := S128x70) hz]
  unfold k1_pay1
  refine (Cert.MatmulRows.matmul_zero_ix2 dot_S10000x128_S128x70_S10000x70_1_0_0_1_n_n rfl rfl rfl rfl rfl rfl none _ _ p q).trans ?_
  refine Finset.sum_congr rfl fun k _ => ?_
  rw [truncf_apply, truncf_apply, maximumf_apply, shapeCast_self, broadcast_apply]

/-- The host's product of the whole arrays, entry (P, q). -/
theorem layer0_at (x : FVec Ideal S100000x128 .f32) (w : FVec Ideal S128x128 .f32) (P : Fin 100000) (q : Fin 128) :
    layer0 x w (ix2 P q) = ∑ k : Fin 128, x (ix2 P k) * w (ix2 k q) :=
  Cert.MatmulRows.dotGeneral_ix2 dotHidden rfl rfl rfl rfl rfl rfl none .single x w P q

theorem layer1_at (h : FVec Ideal S100000x128 .f32) (w : FVec Ideal S128x70 .f32) (P : Fin 100000) (q : Fin 70) :
    layer1 h w (ix2 P q) = ∑ k : Fin 128, max (h (ix2 P k)) (Scalar.ofBits (F := Ideal) .f32 0x00000000#32) * w (ix2 k q) :=
  Cert.MatmulRows.dotGeneral_ix2 dotOut rfl rfl rfl rfl rfl rfl none .single _ w P q

end Cert.KernelIdeal.Layers

end
-- ==== Proof.Blocks.lean ====
/-
  From the blocks to the arrays.

  The left operand's window of each region steps down the node rows, ten thousand at a time; the weights' window
  always shows the whole weight matrix; the result's window steps with the left operand's.  So the block the body
  works on at grid point t holds rows 10000 t to 10000 t + 9999, what it writes back is those rows of the product of
  the whole arrays, and since every row lies in exactly one block the result array ends holding that product.
-/
import proofs.«170511_j75359496175833_1_alg».proof.Proof.RowProduct

noncomputable section

namespace Cert.KernelIdeal.Layers

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## Region 0 -/

/-- The printed index maps over the grid: the left operand's and the result's blocks move down the rows with the grid
    point, the weights' one block stays. -/
theorem idx0 : ∀ t : Fin cfg0.N, win0_0.index t 0 = t.val ∧ win0_0.index t 1 = 0 ∧ win0_1.index t 0 = 0 ∧ win0_1.index t 1 = 0
    ∧ win0_2.index t 0 = t.val ∧ win0_2.index t 1 = 0 :=
  (by decide +kernel : ∀ t : Fin grid0.N, _)

/-- The left operand's block at point t is rows 10000 t … 10000 t + 9999 of its array. -/
theorem rows0 (c : Dev nD) (t : Fin cfg0.N) (p : Fin 10000) (k : Fin 128) (P : Fin 100000) (hP : P.val = 10000 * t.val + p.val) :
    (iblk0 V c 0 t : Vec Ideal S10000x128 .f32) (ix2 p k) = (V c main_arg0 : Vec Ideal S100000x128 .f32) (ix2 P k) := by
  obtain ⟨e0, e1, -⟩ := idx0 t
  unfold iblk0
  rw [View.read_apply]
  show V c main_arg0 _ = V c main_arg0 _
  congr 1
  funext a; apply Fin.ext
  match a with
  | ⟨0, _⟩ => show win0_0.index t 0 * 10000 + 1 * p.val = P.val; rw [e0, hP]; omega
  | ⟨1, _⟩ => show win0_0.index t 1 * 128 + 1 * k.val = k.val; rw [e1]; omega

/-- The weights' block at every point is the whole weight array. -/
theorem weights0 (c : Dev nD) (t : Fin cfg0.N) (k : Fin 128) (q : Fin 128) :
    (iblk0 V c 1 t : Vec Ideal S128x128 .f32) (ix2 k q) = (V c main_arg2 : Vec Ideal S128x128 .f32) (ix2 k q) := by
  obtain ⟨-, -, e2, e3, -⟩ := idx0 t
  unfold iblk0
  rw [View.read_apply]
  show V c main_arg2 _ = V c main_arg2 _
  congr 1
  funext a; apply Fin.ext
  match a with
  | ⟨0, _⟩ => show win0_1.index t 0 * 128 + 1 * k.val = k.val; rw [e2]; omega
  | ⟨1, _⟩ => show win0_1.index t 1 * 128 + 1 * q.val = q.val; rw [e3]; omega

/-- What the body leaves at point t, entry (p, q), is entry (10000 t + p, q) of the product of the whole arrays. -/
theorem block0 (c : Dev nD) (t : Fin cfg0.N) (p : Fin 10000) (q : Fin 128) (P : Fin 100000) (hP : P.val = 10000 * t.val + p.val) :
    out0_2 (F := Ideal) (iblk0 V c 0 t) (iblk0 V c 1 t) (ix2 p q) = layer0 (V c main_arg0) (V c main_arg2) (ix2 P q) := by
  refine (body0_at (iblk0 V c 0 t) (iblk0 V c 1 t) p q).trans ?_
  rw [layer0_at]
  exact Finset.sum_congr rfl fun k _ => by rw [rows0 V c t p k P hP, weights0 V c t k q]

/-- What point t writes back is block t of the product of the whole arrays. -/
theorem flushed0 (c : Dev nD) (t : Fin cfg0.N) :
    (dat0 V c).flushed 2 t = ((cfg0.win 2).blk t).view.read (Elt Ideal) (layer0 (V c main_arg0) (V c main_arg2)) := by
  show (cfg0.win 2).cut (grid0.coords t) ((dat0 V c).after 2 t) = _
  rw [after0_2]
  funext j
  obtain ⟨p, q, rfl⟩ : ∃ (p : Fin 10000) (q : Fin 128), j = ix2 p q := ⟨j 0, j 1, eq_ix2 j⟩
  rw [View.read_apply]
  obtain ⟨-, -, -, -, e4, e5⟩ := idx0 t
  have hN : cfg0.N = 10 := N_0
  have hp : p.val < 10000 := p.isLt
  have ht : t.val < 10 := lt_of_lt_of_eq t.isLt hN
  have hP : 10000 * t.val + p.val < 100000 := by omega
  have he : ((cfg0.win 2).blk t).view.emb (ix2 p q) = ix2 (⟨10000 * t.val + p.val, hP⟩ : Fin 100000) q := by
    funext a; apply Fin.ext
    match a with
    | ⟨0, _⟩ => show win0_2.index t 0 * 10000 + 1 * p.val = 10000 * t.val + p.val; rw [e4]; omega
    | ⟨1, _⟩ => show win0_2.index t 1 * 128 + 1 * q.val = q.val; rw [e5]; omega
  rw [he]
  exact block0 V c t p q _ rfl

/-- Row P of the result array lies in the block of point P / 10000. -/
theorem cover0 (c : Dev nD) (i : S100000x128.Idx) :
    ∃ t : Fin cfg0.N, (cfg0.win 2).flush t = true ∧ i ∈ ((cfg0.win 2).blk t).view.set := by
  have hN : cfg0.N = 10 := N_0
  have h0 : (i 0).val < 100000 := (i 0).isLt
  have h1 : (i 1).val < 128 := (i 1).isLt
  have htN : (i 0).val / 10000 < cfg0.N := by rw [hN]; omega
  refine ⟨⟨(i 0).val / 10000, htN⟩, flush0_2 _, ?_⟩
  have e4 : win0_2.index ⟨(i 0).val / 10000, htN⟩ 0 = (i 0).val / 10000 := (idx0 ⟨(i 0).val / 10000, htN⟩).2.2.2.2.1
  have e5 : win0_2.index ⟨(i 0).val / 10000, htN⟩ 1 = 0 := (idx0 ⟨(i 0).val / 10000, htN⟩).2.2.2.2.2
  show i ∈ ((View.whole main_v0).slice (win0_2.rect ⟨(i 0).val / 10000, htN⟩)).set
  rw [View.set_slice_whole, Rect.mem_set_unit]
  intro a
  match a with
  | ⟨0, _⟩ =>
    show win0_2.index ⟨(i 0).val / 10000, htN⟩ 0 * 10000 ≤ (i 0).val ∧ (i 0).val < win0_2.index ⟨(i 0).val / 10000, htN⟩ 0 * 10000 + 10000
    rw [e4]; omega
  | ⟨1, _⟩ =>
    show win0_2.index ⟨(i 0).val / 10000, htN⟩ 1 * 128 ≤ (i 1).val ∧ (i 1).val < win0_2.index ⟨(i 0).val / 10000, htN⟩ 1 * 128 + 128
    rw [e5]; omega

/-- After the last point the result array is the product of the whole arrays as the region found them. -/
theorem array0 (c : Dev nD) : (dat0 V c).arrAt 2 cfg0.N = layer0 (V c main_arg0) (V c main_arg2) :=
  (dat0 V c).arrAt_eq_of_cover 2 _ (fun t _ => flushed0 V c t) (cover0 c)

/-! ## Region 1 -/

/-- The printed index maps over the grid: the left operand's and the result's blocks move down the rows with the grid
    point, the weights' one block stays. -/
theorem idx1 : ∀ t : Fin cfg1.N, win1_0.index t 0 = t.val ∧ win1_0.index t 1 = 0 ∧ win1_1.index t 0 = 0 ∧ win1_1.index t 1 = 0
    ∧ win1_2.index t 0 = t.val ∧ win1_2.index t 1 = 0 :=
  (by decide +kernel : ∀ t : Fin grid1.N, _)

/-- The left operand's block at point t is rows 10000 t … 10000 t + 9999 of its array. -/
theorem rows1 (c : Dev nD) (t : Fin cfg1.N) (p : Fin 10000) (k : Fin 128) (P : Fin 100000) (hP : P.val = 10000 * t.val + p.val) :
    (iblk1 V c 0 t : Vec Ideal S10000x128 .f32) (ix2 p k) = (V c main_v46 : Vec Ideal S100000x128 .f32) (ix2 P k) := by
  obtain ⟨e0, e1, -⟩ := idx1 t
  unfold iblk1
  rw [View.read_apply]
  show V c main_v46 _ = V c main_v46 _
  congr 1
  funext a; apply Fin.ext
  match a with
  | ⟨0, _⟩ => show win1_0.index t 0 * 10000 + 1 * p.val = P.val; rw [e0, hP]; omega
  | ⟨1, _⟩ => show win1_0.index t 1 * 128 + 1 * k.val = k.val; rw [e1]; omega

/-- The weights' block at every point is the whole weight array. -/
theorem weights1 (c : Dev nD) (t : Fin cfg1.N) (k : Fin 128) (q : Fin 70) :
    (iblk1 V c 1 t : Vec Ideal S128x70 .f32) (ix2 k q) = (V c main_arg4 : Vec Ideal S128x70 .f32) (ix2 k q) := by
  obtain ⟨-, -, e2, e3, -⟩ := idx1 t
  unfold iblk1
  rw [View.read_apply]
  show V c main_arg4 _ = V c main_arg4 _
  congr 1
  funext a; apply Fin.ext
  match a with
  | ⟨0, _⟩ => show win1_1.index t 0 * 128 + 1 * k.val = k.val; rw [e2]; omega
  | ⟨1, _⟩ => show win1_1.index t 1 * 70 + 1 * q.val = q.val; rw [e3]; omega

/-- What the body leaves at point t, entry (p, q), is entry (10000 t + p, q) of the product of the whole arrays. -/
theorem block1 (c : Dev nD) (t : Fin cfg1.N) (p : Fin 10000) (q : Fin 70) (P : Fin 100000) (hP : P.val = 10000 * t.val + p.val) :
    out1_2 (F := Ideal) (iblk1 V c 0 t) (iblk1 V c 1 t) (ix2 p q) = layer1 (V c main_v46) (V c main_arg4) (ix2 P q) := by
  refine (body1_at (iblk1 V c 0 t) (iblk1 V c 1 t) p q).trans ?_
  rw [layer1_at]
  exact Finset.sum_congr rfl fun k _ => by rw [rows1 V c t p k P hP, weights1 V c t k q]

/-- What point t writes back is block t of the product of the whole arrays. -/
theorem flushed1 (c : Dev nD) (t : Fin cfg1.N) :
    (dat1 V c).flushed 2 t = ((cfg1.win 2).blk t).view.read (Elt Ideal) (layer1 (V c main_v46) (V c main_arg4)) := by
  show (cfg1.win 2).cut (grid1.coords t) ((dat1 V c).after 2 t) = _
  rw [after1_2]
  funext j
  obtain ⟨p, q, rfl⟩ : ∃ (p : Fin 10000) (q : Fin 70), j = ix2 p q := ⟨j 0, j 1, eq_ix2 j⟩
  rw [View.read_apply]
  obtain ⟨-, -, -, -, e4, e5⟩ := idx1 t
  have hN : cfg1.N = 10 := N_1
  have hp : p.val < 10000 := p.isLt
  have ht : t.val < 10 := lt_of_lt_of_eq t.isLt hN
  have hP : 10000 * t.val + p.val < 100000 := by omega
  have he : ((cfg1.win 2).blk t).view.emb (ix2 p q) = ix2 (⟨10000 * t.val + p.val, hP⟩ : Fin 100000) q := by
    funext a; apply Fin.ext
    match a with
    | ⟨0, _⟩ => show win1_2.index t 0 * 10000 + 1 * p.val = 10000 * t.val + p.val; rw [e4]; omega
    | ⟨1, _⟩ => show win1_2.index t 1 * 70 + 1 * q.val = q.val; rw [e5]; omega
  rw [he]
  exact block1 V c t p q _ rfl

/-- Row P of the result array lies in the block of point P / 10000. -/
theorem cover1 (c : Dev nD) (i : S100000x70.Idx) :
    ∃ t : Fin cfg1.N, (cfg1.win 2).flush t = true ∧ i ∈ ((cfg1.win 2).blk t).view.set := by
  have hN : cfg1.N = 10 := N_1
  have h0 : (i 0).val < 100000 := (i 0).isLt
  have h1 : (i 1).val < 70 := (i 1).isLt
  have htN : (i 0).val / 10000 < cfg1.N := by rw [hN]; omega
  refine ⟨⟨(i 0).val / 10000, htN⟩, flush1_2 _, ?_⟩
  have e4 : win1_2.index ⟨(i 0).val / 10000, htN⟩ 0 = (i 0).val / 10000 := (idx1 ⟨(i 0).val / 10000, htN⟩).2.2.2.2.1
  have e5 : win1_2.index ⟨(i 0).val / 10000, htN⟩ 1 = 0 := (idx1 ⟨(i 0).val / 10000, htN⟩).2.2.2.2.2
  show i ∈ ((View.whole main_v47).slice (win1_2.rect ⟨(i 0).val / 10000, htN⟩)).set
  rw [View.set_slice_whole, Rect.mem_set_unit]
  intro a
  match a with
  | ⟨0, _⟩ =>
    show win1_2.index ⟨(i 0).val / 10000, htN⟩ 0 * 10000 ≤ (i 0).val ∧ (i 0).val < win1_2.index ⟨(i 0).val / 10000, htN⟩ 0 * 10000 + 10000
    rw [e4]; omega
  | ⟨1, _⟩ =>
    show win1_2.index ⟨(i 0).val / 10000, htN⟩ 1 * 70 ≤ (i 1).val ∧ (i 1).val < win1_2.index ⟨(i 0).val / 10000, htN⟩ 1 * 70 + 70
    rw [e5]; omega

/-- After the last point the result array is the product of the whole arrays as the region found them. -/
theorem array1 (c : Dev nD) : (dat1 V c).arrAt 2 cfg1.N = layer1 (V c main_v46) (V c main_arg4) :=
  (dat1 V c).arrAt_eq_of_cover 2 _ (fun t _ => flushed1 V c t) (cover1 c)

end Cert.KernelIdeal.Layers

end
-- ==== Proof.LibRegionOp.lean ====
/-
  A pipelined region as one pure operation of a program's fold.

  A program that alternates stretches of host operations with pipelined regions leaves, at each boundary, the
  buffer contents obtained by folding its segments over the launch contents: a host operation rewrites its result
  buffer with its function of its operands, and a region rewrites its arrays with what its write-backs leave.
  When a region's input arrays end as it found them and its one output array ends at a function of those inputs,
  the region rewrites the contents exactly as one host operation with that function would.  The whole program is
  then one line of operations, and what a buffer holds at the end is a computation over that line.
-/
import Idealize.ShloMosaic.Lib.Pipeline.FrameSuffix
import Idealize.ShloMosaic.Lib.StableHlo.Run

noncomputable section

namespace Cert.RegionOp

open Idealize.ShloMosaic Idealize.ShloMosaic.StableHlo Idealize.ShloMosaic.TcCoe

variable {nD : Nat} {τ : Topo} {sig : RefSig} {Val : EltTy → Type}

/-- Two lines run one after the other leave what their concatenation leaves. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- A region whose output array `o` ends at what the operation `op` writes there, whose other arrays end as the
    region found them, and which writes nothing else, leaves what `op` leaves. -/
theorem withArrays_eq_result {gr W : Nat} (win : Fin W → Pipeline.WinSpec sig gr) (hinj : Function.Injective (Pipeline.arrRef win))
    (c : Dev nD) (V : Valuation τ sig Val) (A : (w : Fin W) → Buf Val ((win w).arr.view.loc (c.tc : Thread nD τ)))
    (op : HloOp τ sig Val) (o : Fin W)
    (hw : op.writes = {Proc.devRef .tc (Pipeline.arrRef win o)})
    (hout : A o = op.result V (Proc.devRef .tc (Pipeline.arrRef win o)))
    (hin : ∀ w, w ≠ o → A w = V (Proc.devRef .tc (Pipeline.arrRef win w))) :
    Pipeline.withArrays win c V A = op.result V := by
  funext b
  by_cases h : ∃ w, Proc.devRef .tc (Pipeline.arrRef win w) = b
  · obtain ⟨w, rfl⟩ := h
    rw [Pipeline.withArrays_arr win hinj]
    by_cases hwo : w = o
    · subst hwo; exact hout
    · rw [hin w hwo, op.result_of_not_mem V (by
        rw [hw, Finset.mem_singleton]; exact fun e => hwo (hinj (Proc.devRef_injective _ e)))]
  · have hb : b ∉ op.writes := by
      rw [hw, Finset.mem_singleton]; exact fun e => h ⟨o, e.symm⟩
    rw [op.result_of_not_mem V hb]
    unfold Pipeline.withArrays
    rw [dif_neg h]

end Cert.RegionOp

end
-- ==== Proof.Fold.lean ====
/-
  The kernel's program as one line of operations.

  Between the launch and the return the program's buffer contents are folded through three stretches of host
  operations, a pipelined region, three more stretches and a second region's worth again.  A region whose two operand
  arrays end as it found them and whose result array ends at the product of the whole operand arrays rewrites the
  contents exactly as one host operation computing that product would.  With both regions replaced by such an
  operation the fold is a single line of host operations over the launch contents: the first layer's product and the
  three stretches that aggregate it up to the point where the second region is entered, then the cut-off at zero with
  the second product and the three stretches that aggregate that.
-/
import proofs.«170511_j75359496175833_1_alg».proof.Proof.Blocks
import proofs.«170511_j75359496175833_1_alg».proof.Proof.LibRegionOp
import Idealize.ShloMosaic.Lib.StableHlo.Run

noncomputable section

namespace Cert.KernelIdeal.Layers

open Idealize.ShloMosaic Idealize.ShloMosaic.TcCoe Idealize.SL.Sem Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg)

/-- Region 0 as a host operation: the result buffer takes the product of the two operand buffers. -/
def op0 : HloOp τ sig (Elt Ideal) :=
  StableHlo.binary main_arg0 main_arg2 main_v0 ((fun l r => layer0 l r) : (⟨S100000x128, .f32⟩ : BufTy).Contents (Elt Ideal) → (⟨S128x128, .f32⟩ : BufTy).Contents (Elt Ideal) → (⟨S100000x128, .f32⟩ : BufTy).Contents (Elt Ideal))

/-- Region 1 as a host operation: the cut-off at zero, then the product. -/
def op1 : HloOp τ sig (Elt Ideal) :=
  StableHlo.binary main_v46 main_arg4 main_v47 ((fun l r => layer1 l r) : (⟨S100000x128, .f32⟩ : BufTy).Contents (Elt Ideal) → (⟨S128x70, .f32⟩ : BufTy).Contents (Elt Ideal) → (⟨S100000x70, .f32⟩ : BufTy).Contents (Elt Ideal))

/-- What region 0 leaves is what its operation leaves. -/
theorem W1_eq (c : Dev nD) : W1 m ρ c = op0.result (W0 m ρ c) := by
  unfold W1
  refine Cert.RegionOp.withArrays_eq_result spec0 launch0.win.arr_inj c (W0 m ρ c) _ op0 2 rfl ?_ ?_
  · rw [array0 (V0 m ρ) c]
    exact (StableHlo.binary_result main_arg0 main_arg2 main_v0 _ _ _ _ (W0 m ρ c)).symm
  · intro w hw
    match w, hw with
    | ⟨0, _⟩, _ => exact ((dat0 (V0 m ρ) c).arrAt_in 0 rfl _).trans (A_eq0 (V0 m ρ) c 0)
    | ⟨1, _⟩, _ => exact ((dat0 (V0 m ρ) c).arrAt_in 1 rfl _).trans (A_eq0 (V0 m ρ) c 1)
    | ⟨2, _⟩, h => exact absurd rfl h

/-- What region 1 leaves is what its operation leaves. -/
theorem W5_eq (c : Dev nD) : W5 m ρ c = op1.result (W4 m ρ c) := by
  unfold W5
  refine Cert.RegionOp.withArrays_eq_result spec1 launch1.win.arr_inj c (W4 m ρ c) _ op1 2 rfl ?_ ?_
  · rw [array1 (V4 m ρ) c]
    exact (StableHlo.binary_result main_v46 main_arg4 main_v47 _ _ _ _ (W4 m ρ c)).symm
  · intro w hw
    match w, hw with
    | ⟨0, _⟩, _ => exact ((dat1 (V4 m ρ) c).arrAt_in 0 rfl _).trans (A_eq1 (V4 m ρ) c 0)
    | ⟨1, _⟩, _ => exact ((dat1 (V4 m ρ) c).arrAt_in 1 rfl _).trans (A_eq1 (V4 m ρ) c 1)
    | ⟨2, _⟩, h => exact absurd rfl h

/-- The contents when the second region is entered: the first product, then the three stretches. -/
theorem W4_eq (c : Dev nD) :
    W4 m ρ c = after hostOps1_2 (after hostOps1_1 (after hostOps1 (op0.result (W0 m ρ c)))) := by
  show after hostOps1_2 (after hostOps1_1 (after hostOps1 (W1 m ρ c))) = _
  rw [W1_eq]

/-- The contents at the return, from the contents when the second region is entered: the second product, then the
    three stretches. -/
theorem W8_of_W4 (c : Dev nD) :
    W8 m ρ c = after hostOps2_2 (after hostOps2_1 (after hostOps2 (op1.result (W4 m ρ c)))) := by
  show after hostOps2_2 (after hostOps2_1 (after hostOps2 (W5 m ρ c))) = _
  rw [W5_eq]

end Cert.KernelIdeal.Layers

end
-- ==== Proof.LibLineEval.lean ====
/-
  Evaluating a line of host operations at one buffer, through joined vectors.

  What a buffer holds after a line of host operations is computed by walking the line backwards: an operation's own
  result buffer holds its function of what its operand buffers held before it, any other buffer what it held before.
  The library's one-pass form of this walk stops at a vector made by joining pieces end to end: the join takes its
  pieces as a list of (shape, vector) pairs and its side condition is stated of that list, so the pass cannot rewrite
  a piece and leaves the rest of the walk unevaluated inside it.  Stated as a function of its two pieces — the side
  condition then speaks of the two shapes only — a two-piece join lets the walk continue into both pieces.
  `eval_line` is the one-pass walk with that restatement added, and with the rules that take the first or the last
  so many operations of a literal line, so that a long line can be evaluated in two halves.
-/
import Idealize.ShloMosaic.Lib.StableHlo.Run

noncomputable section

namespace Cert.LineEval

open Idealize.ShloMosaic Idealize.ShloMosaic.StableHlo

/-- Two vectors joined along an axis, as a function of the two vectors. -/
def joined {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

/-- The join of a two-element list of pieces is that function of the pieces. -/
theorem joined_eq {α : Type} (t : Shape) (a : Fin t.rank) (s₁ s₂ : Shape) (h : Shape.Concatenates [s₁, s₂] t a)
    (x : s₁.Idx → α) (y : s₂.Idx → α) : concatenate t a [⟨s₁, x⟩, ⟨s₂, y⟩] h = joined t a s₁ s₂ h x y := rfl

/-- The walk as one simplification pass over a literal line, or over a literal line's first or last so many
    operations; two-piece joins are entered. Closes a goal `after ops V (Proc.devRef .tc r) = …` or leaves an equation
    between the operations' functions applied to `V` at the buffers the line only reads. -/
macro "eval_line" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', joined_eq,
      List.take_succ_cons, List.take_zero, List.drop_succ_cons, List.drop_zero]))

end Cert.LineEval

end
-- ==== Proof.HalfOne.lean ====
/-
  The first layer: both programs leave the same hidden array.

  Up to the point where the kernel enters its second region, its line of operations is: the product of the features
  with the first weights; the two index vectors (edge sources and targets, each followed by the self loops); the
  in-degree of every node as a scatter of ones; its reciprocal square root where it is positive and zero elsewhere;
  the product's rows gathered at the sources and scaled by the factors of both end points; their scatter onto the
  target rows; the bias added.  The reference's first sixty operations are the same line.  On contents that agree on
  the four arguments read so far the two hidden arrays are the same term, and the edge list, the second weights and the
  second bias are still as they were found.
-/
import proofs.«170511_j75359496175833_1_alg».proof.Proof.Fold
import proofs.«170511_j75359496175833_1_alg».proof.Proof.LibLineEval
import proofs.«170511_j75359496175833_1_alg».proof.Proof.RefRun

noncomputable section

namespace Cert.KernelIdeal.Layers

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

set_option maxRecDepth 8192 in
set_option maxHeartbeats 8000000 in
/-- The hidden array h = A (x · W1) + b1, by either program. -/
theorem first_layer (MR : Valuation Cert.ReferenceIdeal.τ Cert.ReferenceIdeal.sig (Elt Ideal))
    (h0 : MR (Proc.devRef .tc Cert.ReferenceIdeal.main_arg0) = W0 m ρ c (Proc.devRef .tc main_arg0))
    (h1 : MR (Proc.devRef .tc Cert.ReferenceIdeal.main_arg1) = W0 m ρ c (Proc.devRef .tc main_arg1))
    (h2 : MR (Proc.devRef .tc Cert.ReferenceIdeal.main_arg2) = W0 m ρ c (Proc.devRef .tc main_arg2))
    (h3 : MR (Proc.devRef .tc Cert.ReferenceIdeal.main_arg3) = W0 m ρ c (Proc.devRef .tc main_arg3)) :
    W4 m ρ c (Proc.devRef .tc main_v46)
      = after ((Cert.ReferenceIdeal.ValueP.ops (F := Ideal)).take 60) MR (Proc.devRef .tc Cert.ReferenceIdeal.main_v46) := by
  rw [W4_eq]
  unfold op0 Cert.ReferenceIdeal.ValueP.ops
  eval_line
  simp only [h0, h1, h2, h3]
  rfl

set_option maxRecDepth 8192 in
set_option maxHeartbeats 8000000 in
/-- The first layer leaves argument 1 as the kernel's program found it. -/
theorem W4_arg1 : W4 m ρ c (Proc.devRef .tc main_arg1) = W0 m ρ c (Proc.devRef .tc main_arg1) := by
  rw [W4_eq]
  unfold op0
  eval_line

set_option maxRecDepth 8192 in
set_option maxHeartbeats 8000000 in
/-- The reference's first sixty operations leave argument 1 as found. -/
theorem ref_arg1 (MR : Valuation Cert.ReferenceIdeal.τ Cert.ReferenceIdeal.sig (Elt Ideal)) :
    after ((Cert.ReferenceIdeal.ValueP.ops (F := Ideal)).take 60) MR (Proc.devRef .tc Cert.ReferenceIdeal.main_arg1) = MR (Proc.devRef .tc Cert.ReferenceIdeal.main_arg1) := by
  unfold Cert.ReferenceIdeal.ValueP.ops
  eval_line

set_option maxRecDepth 8192 in
set_option maxHeartbeats 8000000 in
/-- The first layer leaves argument 4 as the kernel's program found it. -/
theorem W4_arg4 : W4 m ρ c (Proc.devRef .tc main_arg4) = W0 m ρ c (Proc.devRef .tc main_arg4) := by
  rw [W4_eq]
  unfold op0
  eval_line

set_option maxRecDepth 8192 in
set_option maxHeartbeats 8000000 in
/-- The reference's first sixty operations leave argument 4 as found. -/
theorem ref_arg4 (MR : Valuation Cert.ReferenceIdeal.τ Cert.ReferenceIdeal.sig (Elt Ideal)) :
    after ((Cert.ReferenceIdeal.ValueP.ops (F := Ideal)).take 60) MR (Proc.devRef .tc Cert.ReferenceIdeal.main_arg4) = MR (Proc.devRef .tc Cert.ReferenceIdeal.main_arg4) := by
  unfold Cert.ReferenceIdeal.ValueP.ops
  eval_line

set_option maxRecDepth 8192 in
set_option maxHeartbeats 8000000 in
/-- The first layer leaves argument 5 as the kernel's program found it. -/
theorem W4_arg5 : W4 m ρ c (Proc.devRef .tc main_arg5) = W0 m ρ c (Proc.devRef .tc main_arg5) := by
  rw [W4_eq]
  unfold op0
  eval_line

set_option maxRecDepth 8192 in
set_option maxHeartbeats 8000000 in
/-- The reference's first sixty operations leave argument 5 as found. -/
theorem ref_arg5 (MR : Valuation Cert.ReferenceIdeal.τ Cert.ReferenceIdeal.sig (Elt Ideal)) :
    after ((Cert.ReferenceIdeal.ValueP.ops (F := Ideal)).take 60) MR (Proc.devRef .tc Cert.ReferenceIdeal.main_arg5) = MR (Proc.devRef .tc Cert.ReferenceIdeal.main_arg5) := by
  unfold Cert.ReferenceIdeal.ValueP.ops
  eval_line

end Cert.KernelIdeal.Layers

end
-- ==== Proof.HalfTwo.lean ====
/-
  The second layer: the same function of the hidden array.

  From the point where the kernel enters its second region, its line is: the hidden array cut off below at zero and
  multiplied by the second weights; the index vectors, the degrees and their reciprocal square roots once more; the
  gather, the scaling, the scatter; the second bias.  The reference's operations from the sixty-first on are the same
  line.  On contents that agree on the hidden array, the edge list, the second weights and the second bias, the two
  result arrays are the same term.
-/
import proofs.«170511_j75359496175833_1_alg».proof.Proof.Fold
import proofs.«170511_j75359496175833_1_alg».proof.Proof.LibLineEval
import proofs.«170511_j75359496175833_1_alg».proof.Proof.RefRun

noncomputable section

namespace Cert.KernelIdeal.Layers

open Idealize.ShloMosaic Idealize.ShloMosaic.TcCoe Idealize.SL.Sem Idealize.ShloMosaic.StableHlo
open Cert.KernelIdeal Cert.KernelIdeal.Gen

set_option maxRecDepth 8192 in
set_option maxHeartbeats 8000000 in
/-- out = A (max h 0 · W2) + b2, by either program, from any contents agreeing on what it reads. -/
theorem second_layer (VK : Valuation τ sig (Elt Ideal)) (VR : Valuation Cert.ReferenceIdeal.τ Cert.ReferenceIdeal.sig (Elt Ideal))
    (hh : VR (Proc.devRef .tc Cert.ReferenceIdeal.main_v46) = VK (Proc.devRef .tc main_v46))
    (h1 : VR (Proc.devRef .tc Cert.ReferenceIdeal.main_arg1) = VK (Proc.devRef .tc main_arg1))
    (h4 : VR (Proc.devRef .tc Cert.ReferenceIdeal.main_arg4) = VK (Proc.devRef .tc main_arg4))
    (h5 : VR (Proc.devRef .tc Cert.ReferenceIdeal.main_arg5) = VK (Proc.devRef .tc main_arg5)) :
    after hostOps2_2 (after hostOps2_1 (after hostOps2 (op1.result VK))) (Proc.devRef .tc main_v93)
      = after ((Cert.ReferenceIdeal.ValueP.ops (F := Ideal)).drop 60) VR (Proc.devRef .tc Cert.ReferenceIdeal.main_v94) := by
  unfold op1 Cert.ReferenceIdeal.ValueP.ops
  eval_line
  simp only [hh, h1, h4, h5]
  rfl

end Cert.KernelIdeal.Layers

end
-- ==== Proof.Bridge.lean ====
/-
  The two programs compute one term.

  The reference's line is its first sixty operations followed by the rest.  The first sixty leave the hidden array the
  kernel's program has when it enters its second region, and leave the edge list, the second weights and the second
  bias untouched, as the kernel's first half does; from contents that agree on those four buffers the rest of the
  reference's line and the kernel's second half leave the same result.  No law of arithmetic is used and no input
  needs to be finite: on memories that agree on the six arguments the two results are one term.
-/
import proofs.«170511_j75359496175833_1_alg».proof.Proof.HalfOne
import proofs.«170511_j75359496175833_1_alg».proof.Proof.HalfTwo

noncomputable section

namespace Cert.KernelIdeal.Layers

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- What the reference's line leaves in its result buffer is what the kernel's program returns. -/
theorem result_eq (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5)) :
    after (Cert.ReferenceIdeal.ValueP.ops (F := Ideal)) (launchContents m' c) (Proc.devRef .tc Cert.ReferenceIdeal.main_v94)
      = W8 m ρ c (Proc.devRef .tc main_v93) := by
  have e0 : launchContents m' c (Proc.devRef .tc Cert.ReferenceIdeal.main_arg0) = W0 m ρ c (Proc.devRef .tc main_arg0) := h0
  have e1 : launchContents m' c (Proc.devRef .tc Cert.ReferenceIdeal.main_arg1) = W0 m ρ c (Proc.devRef .tc main_arg1) := h1
  have e2 : launchContents m' c (Proc.devRef .tc Cert.ReferenceIdeal.main_arg2) = W0 m ρ c (Proc.devRef .tc main_arg2) := h2
  have e3 : launchContents m' c (Proc.devRef .tc Cert.ReferenceIdeal.main_arg3) = W0 m ρ c (Proc.devRef .tc main_arg3) := h3
  have e4 : launchContents m' c (Proc.devRef .tc Cert.ReferenceIdeal.main_arg4) = W0 m ρ c (Proc.devRef .tc main_arg4) := h4
  have e5 : launchContents m' c (Proc.devRef .tc Cert.ReferenceIdeal.main_arg5) = W0 m ρ c (Proc.devRef .tc main_arg5) := h5
  have hh := first_layer m ρ c (launchContents m' c) e0 e1 e2 e3
  have k1 := (ref_arg1 (launchContents m' c)).trans (e1.trans (W4_arg1 m ρ c).symm)
  have k4 := (ref_arg4 (launchContents m' c)).trans (e4.trans (W4_arg4 m ρ c).symm)
  have k5 := (ref_arg5 (launchContents m' c)).trans (e5.trans (W4_arg5 m ρ c).symm)
  have cut : after (Cert.ReferenceIdeal.ValueP.ops (F := Ideal)) (launchContents m' c)
      = after ((Cert.ReferenceIdeal.ValueP.ops (F := Ideal)).drop 60) (after ((Cert.ReferenceIdeal.ValueP.ops (F := Ideal)).take 60) (launchContents m' c)) := by
    rw [← Cert.RegionOp.after_append, List.take_append_drop]
  rw [cut, W8_of_W4]
  exact (second_layer (W4 m ρ c) _ hh.symm k1 k4 k5).symm

end Cert.KernelIdeal.Layers

end
-- ==== Proof.lean ====
/-
  A two-layer graph convolution, the kernel's program against the reference's, on the extended reals.

  Both programs compute, for node features x, an edge list, weights W1, W2 and biases b1, b2,
      h   = A (x · W1) + b1,        out = A (max h 0 · W2) + b2,
  where A gathers each edge's source row, scales it by the reciprocal square roots of the two end points' in-degrees
  (self loops added; zero where the degree is not positive) and adds it onto the edge's target row.  The reference
  forms the two products with the host's general product; the kernel forms each in a pipelined region that walks the
  node rows in ten blocks, multiplying a block of rows by the whole weight matrix into a zero accumulator, the second
  region cutting its rows off below at zero first.  Everything else — the degree count, the gathers, the scatters, the
  biases — is the same sequence of host operations in both programs.

  On the extended reals a format change is the identity and a product into zero is the plain sum over the shared
  coordinate, so each region leaves in its result array exactly the host's product of the whole arrays (RowProduct,
  Blocks).  A region then acts on the buffer contents as one host operation (Fold), the kernel's program is one line
  of host operations, and it leaves what the reference's line leaves, half by half (HalfOne, HalfTwo, Bridge): no law of arithmetic
  and no finiteness of the inputs is used.  The frames of the two kernel programs are the generated ones; the
  reference's frame is its run with the result dropped; nothing was rewritten by the ideal pass, so the preservation
  claim is trivial.
-/
import proofs.«170511_j75359496175833_1_alg».proof.Defs
import proofs.«170511_j75359496175833_1_alg».proof.Proof.Gen.Kernel
import proofs.«170511_j75359496175833_1_alg».proof.Proof.Gen.Kernel.Skeleton
import proofs.«170511_j75359496175833_1_alg».proof.Proof.Gen.Kernel.Launch
import proofs.«170511_j75359496175833_1_alg».proof.Proof.Gen.Kernel.Points
import proofs.«170511_j75359496175833_1_alg».proof.Proof.Gen.Kernel.Frame
import proofs.«170511_j75359496175833_1_alg».proof.Proof.Gen.KernelIdeal
import proofs.«170511_j75359496175833_1_alg».proof.Proof.Gen.KernelIdeal.Skeleton
import proofs.«170511_j75359496175833_1_alg».proof.Proof.Gen.KernelIdeal.Launch
import proofs.«170511_j75359496175833_1_alg».proof.Proof.Gen.KernelIdeal.Points
import proofs.«170511_j75359496175833_1_alg».proof.Proof.Gen.KernelIdeal.Frame
import proofs.«170511_j75359496175833_1_alg».proof.Proof.Gen.ReferenceIdeal
import proofs.«170511_j75359496175833_1_alg».proof.Proof.Gen.Pre_finite_inputs
import proofs.«170511_j75359496175833_1_alg».proof.Proof.RefFold
import proofs.«170511_j75359496175833_1_alg».proof.Proof.KernelRun
import proofs.«170511_j75359496175833_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference runs to the fold of its line with the arguments unchanged; the frame keeps the second half. -/
theorem frame_referenceIdeal : Cert.frame_ReferenceIdeal := fun m ρ _ =>
  (θ_run Cert.ReferenceIdeal.defs _ _).mono (fun _ h c => (h c).2) (Cert.ReferenceIdeal.Fold.run (F := Ideal) m ρ)

/-- Both programs end with the result buffer at the kernel's fold value: the kernel by its run, the reference because
    its own fold is that value when the memories agree on the arguments. -/
theorem algebraic : Cert.algebraic_KernelIdeal_ReferenceIdeal := by
  intro m ρ m' ρ' _ hagree
  refine ⟨fun c => Cert.KernelIdeal.Gen.W8 m ρ c (Proc.devRef .tc Cert.KernelIdeal.main_v93),
    Cert.KernelIdeal.Layers.run_result (F := Ideal) m ρ, ?_⟩
  refine (θ_run Cert.ReferenceIdeal.defs _ _).mono (fun _ h c => ⟨(h c).1.trans ?_, (h c).2⟩)
    (Cert.ReferenceIdeal.Fold.run (F := Ideal) m' ρ')
  obtain ⟨h0, h1, h2, h3, h4, h5⟩ := hagree c
  exact Cert.KernelIdeal.Layers.result_eq m ρ m' c h0 h1 h2 h3 h4 h5

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
